-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x128 .f32) (main_arg1 : FVec F S64x128 .f32) (main_arg2 : FVec F S64 .f32) (main_arg3 : FVec F S1x64 .f32) (main_arg4 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S16384x128 : Shape := ⟨2, ![16384, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x64 : Shape := ⟨2, ![128, 64]⟩
abbrev S64x1 : Shape := ⟨2, ![64, 1]⟩
abbrev S1x1 : Shape := ⟨2, ![1, 1]⟩
abbrev S128x128 : Shape := ⟨2, ![128, 128]⟩
abbrev S2048x128 : Shape := ⟨2, ![2048, 128]⟩
abbrev S16x128 : Shape := ⟨2, ![16, 128]⟩
abbrev S2048x64 : Shape := ⟨2, ![2048, 64]⟩
abbrev S2048x1 : Shape := ⟨2, ![2048, 1]⟩
abbrev S16384 : Shape := ⟨1, ![16384]⟩

abbrev nBuf : Space → Nat
  | .hbm => 11
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S128x64, .f32⟩
  | .hbm, ⟨6, _⟩ => ⟨S1x64, .f32⟩
  | .hbm, ⟨7, _⟩ => ⟨S64x1, .f32⟩
  | .hbm, ⟨8, _⟩ => ⟨S1x1, .f32⟩
  | .hbm, ⟨9, _⟩ => ⟨S128x128, .f32⟩
  | .hbm, ⟨10, _⟩ => ⟨S16384, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S16x128, .f32⟩
  | .local _ .vmem, ⟨7, _⟩ => ⟨S16x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x128_S128x64_1_0 : S64x128.Transposes [1, 0] S128x64
  shapeCasts_S64_S1x64 : S64.ShapeCasts S1x64
  shapeCasts_S1x64_S64x1 : S1x64.ShapeCasts S64x1
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S2048x1_S16x128 : S2048x1.ShapeCasts S16x128
  inb_S16x128_S16x128_0_0 : ∀ a, (![0, 0] : Fin 2 → Nat) a + S16x128.size a ≤ S16x128.size a
  h_S16x128 : 0 < S16x128.numel
  shapeCasts_S128x128_S16384 : S128x128.ShapeCasts S16384
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S128x128.size a
  hwx0_5 : ∀ i : grid0.Coords, EltTy.bits .f32 = 32 ∨ (Rect.block (s := S128x128) S16x128.size (cc0_transform_5 i) (hinb0_5 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x64 : Shape := ⟨2, ![128, 64]⟩
abbrev S16384x64 : Shape := ⟨2, ![16384, 64]⟩
abbrev S_ : Shape := ⟨0, ![]⟩
abbrev S64x1 : Shape := ⟨2, ![64, 1]⟩
abbrev S16384x1 : Shape := ⟨2, ![16384, 1]⟩
abbrev S1x1 : Shape := ⟨2, ![1, 1]⟩
abbrev S16384 : Shape := ⟨1, ![16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S128x64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | .hbm, ⟨13, _⟩ => ⟨S64x1, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S1x64_S64x1_1_0 : S1x64.Transposes [1, 0] S64x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The network head as mathematics, over the extended reals. For a batch of 16384 rows of 128 features,
  a hidden layer of 64 units and one output unit:

      hidden r k = max (Σ_j acc[r, j] · W1[k, j] + b1[k]) 0
      score  r   = Σ_k hidden r k · W2[0, k] + b2[0]

  The result is the vector of the 16384 scores. The same numbers laid out in 128 rows of 128 lanes,
  row R and lane C holding the score of batch row 128·R + C, is the array a lane-dense kernel writes;
  flattening that array row-major gives the vector back.
-/
import Idealize.ShloMosaic.PureOps.Ideal
import Idealize.ShloMosaic.Lib.ValueIdx

noncomputable section

open scoped BigOperators

namespace Cert.MlpHead

open Idealize.ShloMosaic Idealize.ShloMosaic.ValueIdx

/-- The float zero the rectifier compares with, kept as its word (the same word on both sides). -/
abbrev zero : EReal := Ideal.ofBits .f32 0x00000000#32

/-- Hidden unit `k` of batch row `r`: the rectified affine form of the row's features. -/
def hidden (acc : FVec Ideal ⟨2, ![16384, 128]⟩ .f32) (w1 : FVec Ideal ⟨2, ![64, 128]⟩ .f32)
    (b1 : FVec Ideal ⟨1, ![64]⟩ .f32) (r : Fin 16384) (k : Fin 64) : EReal :=
  max ((∑ j : Fin 128, acc (ix2 r j) * w1 (ix2 k j)) + b1 (ix1 k)) zero

/-- The score of batch row `r`: the output unit's affine form of the row's hidden units. -/
def score (acc : FVec Ideal ⟨2, ![16384, 128]⟩ .f32) (w1 : FVec Ideal ⟨2, ![64, 128]⟩ .f32)
    (b1 : FVec Ideal ⟨1, ![64]⟩ .f32) (w2 : FVec Ideal ⟨2, ![1, 64]⟩ .f32) (b2 : FVec Ideal ⟨1, ![1]⟩ .f32)
    (r : Fin 16384) : EReal :=
  (∑ k : Fin 64, hidden acc w1 b1 r k * w2 (ix2 (0 : Fin 1) k)) + b2 (ix1 (0 : Fin 1))

/-- The result: the scores as a vector over the batch. -/
def scores (acc : FVec Ideal ⟨2, ![16384, 128]⟩ .f32) (w1 : FVec Ideal ⟨2, ![64, 128]⟩ .f32)
    (b1 : FVec Ideal ⟨1, ![64]⟩ .f32) (w2 : FVec Ideal ⟨2, ![1, 64]⟩ .f32) (b2 : FVec Ideal ⟨1, ![1]⟩ .f32) :
    FVec Ideal ⟨1, ![16384]⟩ .f32 :=
  fun i => score acc w1 b1 w2 b2 (i 0)

/-- Row `R`, lane `C` of the lane-packed layout is batch row `128·R + C`. -/
def packedRow (R C : Fin 128) : Fin 16384 := ⟨R.val * 128 + C.val, by have := R.isLt; have := C.isLt; omega⟩

/-- The scores laid out in 128 rows of 128 lanes. -/
def packed (acc : FVec Ideal ⟨2, ![16384, 128]⟩ .f32) (w1 : FVec Ideal ⟨2, ![64, 128]⟩ .f32)
    (b1 : FVec Ideal ⟨1, ![64]⟩ .f32) (w2 : FVec Ideal ⟨2, ![1, 64]⟩ .f32) (b2 : FVec Ideal ⟨1, ![1]⟩ .f32) :
    FVec Ideal ⟨2, ![128, 128]⟩ .f32 :=
  fun i => score acc w1 b1 w2 b2 (packedRow (i 0) (i 1))

/-- The packed layout read at the position of batch row `i` is that row's score: flattening undoes the packing. -/
theorem packed_at_row (acc : FVec Ideal ⟨2, ![16384, 128]⟩ .f32) (w1 : FVec Ideal ⟨2, ![64, 128]⟩ .f32)
    (b1 : FVec Ideal ⟨1, ![64]⟩ .f32) (w2 : FVec Ideal ⟨2, ![1, 64]⟩ .f32) (b2 : FVec Ideal ⟨1, ![1]⟩ .f32)
    (R C : Fin 128) (r : Fin 16384) (h : r.val = R.val * 128 + C.val) :
    packed acc w1 b1 w2 b2 (ix2 R C) = score acc w1 b1 w2 b2 r := by
  have e : packedRow R C = r := Fin.ext h.symm
  show score acc w1 b1 w2 b2 (packedRow R C) = _
  rw [e]

end Cert.MlpHead

end
-- ==== Proof.RefSpec.lean ====
/-
  The reference computes the scores. Read one operation at a time at a batch row `r`: the final reshape
  reads the [16384, 1] column at (r, 0); the second product sums, over the 64 hidden units, the rectified
  first layer at (r, k) times the transposed output weights at (k, 0), which are W2[0, k]; the first
  product sums, over the 128 features, acc[r, j] times the transposed W1 at (j, k), which is W1[k, j];
  the biases are broadcast along the batch. Every index the chain composes is a pair of coordinates that
  computes, but for the reshape's quotient by one.
-/
import proofs.«120947_g8358006358319_cont_9to1c4b_776_4_alg».proof.Proof.Gen.ReferenceIdeal.Read
import proofs.«120947_g8358006358319_cont_9to1c4b_776_4_alg».proof.Proof.Spec

noncomputable section

open scoped BigOperators

namespace Cert.MlpHead.Reference

open Cert.ReferenceIdeal Cert.ReferenceIdeal.Read Idealize.ShloMosaic Idealize.ShloMosaic.ValueIdx

/-- Where the first product reads the features: row `r`, feature `j`. -/
theorem feature_idx (r : Fin 16384) (k : Fin 64) (j : Fin 128) :
    lidx_main_v1 (lidx_main_v7 (idx_main_v11 (ix1 r)) k) j = ix2 r j := by
  funext a; apply Fin.ext
  match a with
  | ⟨0, _⟩ => exact Nat.div_one _
  | ⟨1, _⟩ => rfl

/-- Where it reads the first layer's weights, through the transpose: unit `k`, feature `j`. -/
theorem weight1_idx (r : Fin 16384) (k : Fin 64) (j : Fin 128) :
    idx_main_v0 (ridx_main_v1 (lidx_main_v7 (idx_main_v11 (ix1 r)) k) j) = ix2 k j := by
  funext a; apply Fin.ext
  match a with
  | ⟨0, _⟩ => rfl
  | ⟨1, _⟩ => rfl

/-- Where the broadcast bias of the first layer is read: unit `k`. -/
theorem bias1_idx (r : Fin 16384) (k : Fin 64) :
    idx_main_v2 (idx_main_v3 (lidx_main_v7 (idx_main_v11 (ix1 r)) k)) = ix1 k := by
  funext a; apply Fin.ext
  match a with
  | ⟨0, _⟩ => rfl

/-- Where the second product reads the output weights, through the transpose: row 0, unit `k`. -/
theorem weight2_idx (r : Fin 16384) (k : Fin 64) :
    idx_main_v6 (ridx_main_v7 (idx_main_v11 (ix1 r)) k) = ix2 (0 : Fin 1) k := by
  funext a; apply Fin.ext
  match a with
  | ⟨0, _⟩ => rfl
  | ⟨1, _⟩ => rfl

/-- Where the broadcast output bias is read: its one entry. -/
theorem bias2_idx (r : Fin 16384) :
    idx_main_v8 (idx_main_v9 (idx_main_v11 (ix1 r))) = ix1 (0 : Fin 1) := by
  funext a; apply Fin.ext
  match a with
  | ⟨0, _⟩ => rfl

/-- The reference's result is the vector of scores of its five arguments. -/
theorem reference_eq_scores (x0 : FVec Ideal S16384x128 .f32) (x1 : FVec Ideal S64x128 .f32) (x2 : FVec Ideal S64 .f32)
    (x3 : FVec Ideal S1x64 .f32) (x4 : FVec Ideal S1 .f32) :
    val_main_v11 (F := Ideal) x0 x1 x2 x3 x4 = Cert.MlpHead.scores x0 x1 x2 x3 x4 := by
  funext i
  obtain ⟨r, rfl⟩ : ∃ r : Fin 16384, i = ix1 r := ⟨i 0, eq_ix1 i⟩
  rw [val_main_v11_apply, val_main_v10_apply, val_main_v7_apply, val_main_v9_apply, val_main_v8_apply]
  simp only [val_main_v5_apply, val_main_v4_apply, val_main_v1_apply, val_main_v0_apply, val_main_v3_apply,
    val_main_v2_apply, val_main_v6_apply, val_main_call0_v0_apply, val_main_call0_cst_apply,
    feature_idx, weight1_idx, bias1_idx, weight2_idx, bias2_idx,
    Ideal.addf_def, Ideal.maximumf_def, Ideal.ofBits_def]
  rfl

end Cert.MlpHead.Reference

end
-- ==== Proof.BodySpec.lean ====
/-
  What the kernel body stores, read at one position. The body holds a block of 2048 batch rows. It
  multiplies the [2048, 128] block of features by the [128, 64] transposed first-layer weights into a zero
  accumulator, adds the bias row broadcast down the block, rectifies against zero, multiplies the
  [2048, 64] hidden block by the [64, 1] output-weight column into a zero accumulator, adds the output bias,
  and stores the [2048, 1] column re-laid as 16 rows of 128 lanes. A matrix product into zero is the plain sum
  over the contracted axis; the re-laying keeps row-major order, so position (p, q) of the stored block is
  block row 128·p + q.
-/
import proofs.«120947_g8358006358319_cont_9to1c4b_776_4_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.MlpHead.Body

open Cert.KernelIdeal Cert.KernelIdeal.Gen Idealize.ShloMosaic Idealize.ShloMosaic.ValueIdx

/-! ## The two matrix products into zero, at an entry

Each product contracts the left operand's second axis with the right operand's first. The index the
product reads on each side is named coordinate by coordinate; the contraction's one-axis index set is
re-indexed by its coordinate. -/

/-- The first product's operand indices, coordinate by coordinate: the left operand is read at the result's row and the contracted coordinate, the right at the contracted coordinate and the result's column. -/
theorem layer1_lhs0 (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide),
    dif_pos (show (0 : Fin S2048x128.rank) ∈ dot_S2048x128_S128x64_S2048x64_1_0_0_1_n_n.lhsNonContracting by decide)]
  rfl
theorem layer1_lhs1 (i : S2048x64.Idx) (q : dot_S2048x128_S128x64_S2048x64_1_0_0_1_n_n.contr.Idx) : (dot_S2048x128_S128x64_S2048x64_1_0_0_1_n_n.lhsIdx i q 1).val = (q ⟨0, by decide⟩).val :=
  dot_S2048x128_S128x64_S2048x64_1_0_0_1_n_n.lhsIdx_val_of_single rfl i q
theorem layer1_rhs0 (i : S2048x64.Idx) (q : dot_S2048x128_S128x64_S2048x64_1_0_0_1_n_n.contr.Idx) : (dot_S2048x128_S128x64_S2048x64_1_0_0_1_n_n.rhsIdx i q 0).val = (q ⟨0, by decide⟩).val :=
  dot_S2048x128_S128x64_S2048x64_1_0_0_1_n_n.rhsIdx_val_of_single rfl i q
theorem layer1_rhs1 (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide),
    dif_pos (show (1 : Fin S128x64.rank) ∈ dot_S2048x128_S128x64_S2048x64_1_0_0_1_n_n.rhsNonContracting by decide)]
  rfl

/-- The first product at (r, k): the sum over the 128 features of block row `r` times column `k`. -/
theorem layer1_apply (x : FVec Ideal S2048x128 .f32) (w : FVec Ideal S128x64 .f32) (r : Fin 2048) (k : Fin 64) :
    matmul dot_S2048x128_S128x64_S2048x64_1_0_0_1_n_n none x w (constant S2048x64 .f32 0x00000000#32) (ix2 r k)
      = ∑ j : Fin 128, x (ix2 r j) * w (ix2 j k) := by
  show FloatOps.matmul dot_S2048x128_S128x64_S2048x64_1_0_0_1_n_n none x w (constant S2048x64 .f32 0x00000000#32) (ix2 r k) = _
  rw [Ideal.matmul_constant_zero_apply, ← Equiv.sum_comp (contrEquiv1 dot_S2048x128_S128x64_S2048x64_1_0_0_1_n_n 128 rfl rfl).symm]
  refine Finset.sum_congr rfl fun j _ => ?_
  have hj := contrEquiv1_symm_val dot_S2048x128_S128x64_S2048x64_1_0_0_1_n_n 128 rfl rfl j
  have el : dot_S2048x128_S128x64_S2048x64_1_0_0_1_n_n.lhsIdx (ix2 r k) ((contrEquiv1 dot_S2048x128_S128x64_S2048x64_1_0_0_1_n_n 128 rfl rfl).symm j) = ix2 r j :=
    funext fun a => Fin.ext (by
      match a with
      | ⟨0, _⟩ => exact layer1_lhs0 _ _
      | ⟨1, _⟩ => exact (layer1_lhs1 _ _).trans hj)
  have er : dot_S2048x128_S128x64_S2048x64_1_0_0_1_n_n.rhsIdx (ix2 r k) ((contrEquiv1 dot_S2048x128_S128x64_S2048x64_1_0_0_1_n_n 128 rfl rfl).symm j) = ix2 j k :=
    funext fun a => Fin.ext (by
      match a with
      | ⟨0, _⟩ => exact (layer1_rhs0 _ _).trans hj
      | ⟨1, _⟩ => exact layer1_rhs1 _ _)
  rw [el, er]

/-- The second product's operand indices, coordinate by coordinate. -/
theorem layer2_lhs0 (i : S2048x1.Idx) (q : dot_S2048x64_S64x1_S2048x1_1_0_0_1_n_n.contr.Idx) : (dot_S2048x64_S64x1_S2048x1_1_0_0_1_n_n.lhsIdx i q 0).val = (i 0).val := by
  unfold DotDims.lhsIdx
  rw [dif_neg (show ¬(0 : Fin S2048x64.rank) ∈ dot_S2048x64_S64x1_S2048x1_1_0_0_1_n_n.lhsBatch by decide),
    dif_pos (show (0 : Fin S2048x64.rank) ∈ dot_S2048x64_S64x1_S2048x1_1_0_0_1_n_n.lhsNonContracting by decide)]
  rfl
theorem layer2_lhs1 (i : S2048x1.Idx) (q : dot_S2048x64_S64x1_S2048x1_1_0_0_1_n_n.contr.Idx) : (dot_S2048x64_S64x1_S2048x1_1_0_0_1_n_n.lhsIdx i q 1).val = (q ⟨0, by decide⟩).val :=
  dot_S2048x64_S64x1_S2048x1_1_0_0_1_n_n.lhsIdx_val_of_single rfl i q
theorem layer2_rhs0 (i : S2048x1.Idx) (q : dot_S2048x64_S64x1_S2048x1_1_0_0_1_n_n.contr.Idx) : (dot_S2048x64_S64x1_S2048x1_1_0_0_1_n_n.rhsIdx i q 0).val = (q ⟨0, by decide⟩).val :=
  dot_S2048x64_S64x1_S2048x1_1_0_0_1_n_n.rhsIdx_val_of_single rfl i q
theorem layer2_rhs1 (i : S2048x1.Idx) (q : dot_S2048x64_S64x1_S2048x1_1_0_0_1_n_n.contr.Idx) : (dot_S2048x64_S64x1_S2048x1_1_0_0_1_n_n.rhsIdx i q 1).val = (i 1).val := by
  unfold DotDims.rhsIdx
  rw [dif_neg (show ¬(1 : Fin S64x1.rank) ∈ dot_S2048x64_S64x1_S2048x1_1_0_0_1_n_n.rhsBatch by decide),
    dif_pos (show (1 : Fin S64x1.rank) ∈ dot_S2048x64_S64x1_S2048x1_1_0_0_1_n_n.rhsNonContracting by decide)]
  rfl

/-- The second product at (r, 0): the sum over the 64 hidden units of block row `r` times the column. -/
theorem layer2_apply (h : FVec Ideal S2048x64 .f32) (w : FVec Ideal S64x1 .f32) (r : Fin 2048) :
    matmul dot_S2048x64_S64x1_S2048x1_1_0_0_1_n_n none h w (constant S2048x1 .f32 0x00000000#32) (ix2 r (0 : Fin 1))
      = ∑ k : Fin 64, h (ix2 r k) * w (ix2 k (0 : Fin 1)) := by
  show FloatOps.matmul dot_S2048x64_S64x1_S2048x1_1_0_0_1_n_n none h w (constant S2048x1 .f32 0x00000000#32) (ix2 r (0 : Fin 1)) = _
  rw [Ideal.matmul_constant_zero_apply, ← Equiv.sum_comp (contrEquiv1 dot_S2048x64_S64x1_S2048x1_1_0_0_1_n_n 64 rfl rfl).symm]
  refine Finset.sum_congr rfl fun k _ => ?_
  have hk := contrEquiv1_symm_val dot_S2048x64_S64x1_S2048x1_1_0_0_1_n_n 64 rfl rfl k
  have el : dot_S2048x64_S64x1_S2048x1_1_0_0_1_n_n.lhsIdx (ix2 r (0 : Fin 1)) ((contrEquiv1 dot_S2048x64_S64x1_S2048x1_1_0_0_1_n_n 64 rfl rfl).symm k) = ix2 r k :=
    funext fun a => Fin.ext (by
      match a with
      | ⟨0, _⟩ => exact layer2_lhs0 _ _
      | ⟨1, _⟩ => exact (layer2_lhs1 _ _).trans hk)
  have er : dot_S2048x64_S64x1_S2048x1_1_0_0_1_n_n.rhsIdx (ix2 r (0 : Fin 1)) ((contrEquiv1 dot_S2048x64_S64x1_S2048x1_1_0_0_1_n_n 64 rfl rfl).symm k) = ix2 k (0 : Fin 1) :=
    funext fun a => Fin.ext (by
      match a with
      | ⟨0, _⟩ => exact (layer2_rhs0 _ _).trans hk
      | ⟨1, _⟩ => exact layer2_rhs1 _ _)
  rw [el, er]

/-! ## The body's intermediate values, named -/

/-- The rectified first layer of the block: [2048, 64]. -/
def hiddenBlock (x0 : FVec Ideal S2048x128 .f32) (x1 : FVec Ideal S128x64 .f32) (x2 : FVec Ideal S1x64 .f32) :
    FVec Ideal S2048x64 .f32 :=
  maximumf
    (addf (matmul dot_S2048x128_S128x64_S2048x64_1_0_0_1_n_n none x0 (shapeCast S128x64 x1 shapeCasts_S128x64_S128x64)
        (constant S2048x64 .f32 0x00000000#32))
      (broadcastTo S2048x64 (shapeCast S1x64 x2 shapeCasts_S1x64_S1x64) broadcasts_S1x64_S2048x64))
    (broadcast S2048x64 (Scalar.ofBits (F := Ideal) .f32 0x00000000#32))

/-- The block's scores as a column: [2048, 1]. -/
def scoreColumn (h : FVec Ideal S2048x64 .f32) (x3 : FVec Ideal S64x1 .f32) (x4 : FVec Ideal S1x1 .f32) :
    FVec Ideal S2048x1 .f32 :=
  addf (matmul dot_S2048x64_S64x1_S2048x1_1_0_0_1_n_n none h (shapeCast S64x1 x3 shapeCasts_S64x1_S64x1)
      (constant S2048x1 .f32 0x00000000#32))
    (broadcast S2048x1 (extractAt ![0, 0] x4 inpos_S1x1_p0_0))

/-- The stored value is the score column re-laid as 16 rows of 128 lanes. -/
theorem stored_eq (x0 : FVec Ideal S2048x128 .f32) (x1 : FVec Ideal S128x64 .f32) (x2 : FVec Ideal S1x64 .f32)
    (x3 : FVec Ideal S64x1 .f32) (x4 : FVec Ideal S1x1 .f32) :
    k0_pay1 (F := Ideal) x0 x1 x2 x3 x4
      = shapeCast S16x128 (scoreColumn (hiddenBlock x0 x1 x2) x3 x4) shapeCasts_S2048x1_S16x128 := rfl

/-- The hidden block at (r, k). -/
theorem hiddenBlock_apply (x0 : FVec Ideal S2048x128 .f32) (x1 : FVec Ideal S128x64 .f32) (x2 : FVec Ideal S1x64 .f32)
    (r : Fin 2048) (k : Fin 64) :
    hiddenBlock x0 x1 x2 (ix2 r k)
      = max ((∑ j : Fin 128, x0 (ix2 r j) * x1 (ix2 j k)) + x2 (ix2 (0 : Fin 1) k)) (Ideal.ofBits .f32 0x00000000#32) := by
  unfold hiddenBlock
  rw [maximumf_apply, addf_apply, layer1_apply, shapeCast_self, shapeCast_self, broadcast_apply,
    broadcastTo_apply x2 broadcasts_S1x64_S2048x64 (ix2 r k) (ix2 (0 : Fin 1) k) (fun a => match a with
      | ⟨0, _⟩ => by show 0 = if (1 : Nat) = 1 then 0 else _; rw [if_pos rfl]
      | ⟨1, _⟩ => by show k.val = if (64 : Nat) = 1 then 0 else k.val; rw [if_neg (by decide)])]
  rfl

/-- The score column at (r, 0). -/
theorem scoreColumn_apply (h : FVec Ideal S2048x64 .f32) (x3 : FVec Ideal S64x1 .f32) (x4 : FVec Ideal S1x1 .f32)
    (r : Fin 2048) :
    scoreColumn h x3 x4 (ix2 r (0 : Fin 1))
      = (∑ k : Fin 64, h (ix2 r k) * x3 (ix2 k (0 : Fin 1))) + x4 (ix2 (0 : Fin 1) (0 : Fin 1)) := by
  unfold scoreColumn
  rw [addf_apply, layer2_apply, shapeCast_self, broadcast_apply]
  refine congrArg (_ + ·) ?_
  unfold extractAt
  exact congrArg x4 (funext fun a => Fin.ext (by
    match a with
    | ⟨0, _⟩ => rfl
    | ⟨1, _⟩ => rfl))

/-- Position (p, q) of the stored block is block row 128·p + q. -/
def blockRow (p : Fin 16) (q : Fin 128) : Fin 2048 := ⟨p.val * 128 + q.val, by have := p.isLt; have := q.isLt; omega⟩

/-- THE STORED VALUE AT (p, q): the score of block row 128·p + q, from the loaded blocks. -/
theorem stored_apply (x0 : FVec Ideal S2048x128 .f32) (x1 : FVec Ideal S128x64 .f32) (x2 : FVec Ideal S1x64 .f32)
    (x3 : FVec Ideal S64x1 .f32) (x4 : FVec Ideal S1x1 .f32) (p : Fin 16) (q : Fin 128) :
    k0_pay1 (F := Ideal) x0 x1 x2 x3 x4 (ix2 p q)
      = (∑ k : Fin 64, max ((∑ j : Fin 128, x0 (ix2 (blockRow p q) j) * x1 (ix2 j k)) + x2 (ix2 (0 : Fin 1) k))
            (Ideal.ofBits .f32 0x00000000#32) * x3 (ix2 k (0 : Fin 1)))
          + x4 (ix2 (0 : Fin 1) (0 : Fin 1)) := by
  rw [stored_eq, shapeCast_apply _ shapeCasts_S2048x1_S16x128 (ix2 p q) (ix2 (blockRow p q) (0 : Fin 1)) (by
      rw [Shape.rowMajor_val_two, Shape.rowMajor_val_two]
      show (p.val * 128 + q.val) * 1 + 0 = p.val * 128 + q.val
      omega),
    scoreColumn_apply]
  refine congrArg (· + _) (Finset.sum_congr rfl fun k _ => ?_)
  rw [hiddenBlock_apply]

end Cert.MlpHead.Body

end
-- ==== Proof.EntryArrays.lean ====
/-
  The arrays the region finds. Before the region the host transposes W1 to [128, 64], re-lays b1 as a
  [1, 64] row, W2 as a [64, 1] column and b2 as a [1, 1] entry; the batch of features is the argument
  itself. Read at an index: the transpose swaps the two coordinates, and each re-laying keeps the
  row-major position, which for these shapes is the one coordinate that is not a unit axis.
-/
import proofs.«120947_g8358006358319_cont_9to1c4b_776_4_alg».proof.Proof.Gen.KernelIdeal.Frame
import Idealize.ShloMosaic.Lib.Pipeline.Value
import Idealize.ShloMosaic.Lib.ValueIdx
import Idealize.ShloMosaic.Lib.StableHlo.Run

noncomputable section

namespace Cert.MlpHead.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The first-layer weights as the region finds them: the transpose of the argument. -/
theorem weights1 (c : Dev nD) :
    (V m c main_v0 : S128x64.Idx → EReal)
      = transpose S128x64 [1, 0] (m ((c : Thread nD τ).loc main_arg1)) transposes_S64x128_S128x64_1_0 := by
  show StableHlo.after hostOps0 (fun b => m (c, b)) (Proc.devRef .tc main_v0) = _
  after_results <;> rfl

/-- The first-layer bias as the region finds it: the argument as a row. -/
theorem bias1 (c : Dev nD) :
    (V m c main_v1 : S1x64.Idx → EReal)
      = shapeCast S1x64 (m ((c : Thread nD τ).loc main_arg2)) shapeCasts_S64_S1x64 := by
  show StableHlo.after hostOps0 (fun b => m (c, b)) (Proc.devRef .tc main_v1) = _
  after_results <;> rfl

/-- The output weights as the region finds them: the argument as a column. -/
theorem weights2 (c : Dev nD) :
    (V m c main_v2 : S64x1.Idx → EReal)
      = shapeCast S64x1 (m ((c : Thread nD τ).loc main_arg3)) shapeCasts_S1x64_S64x1 := by
  show StableHlo.after hostOps0 (fun b => m (c, b)) (Proc.devRef .tc main_v2) = _
  after_results <;> rfl

/-- The output bias as the region finds it: the argument as a [1, 1] entry. -/
theorem bias2 (c : Dev nD) :
    (V m c main_v3 : S1x1.Idx → EReal)
      = shapeCast S1x1 (m ((c : Thread nD τ).loc main_arg4)) shapeCasts_S1_S1x1 := by
  show StableHlo.after hostOps0 (fun b => m (c, b)) (Proc.devRef .tc main_v3) = _
  after_results <;> rfl

/-- Entry (j, k) of the transposed weights is W1[k, j]. -/
theorem weights1_apply (c : Dev nD) (j : Fin 128) (k : Fin 64) :
    (V m c main_v0 : S128x64.Idx → EReal) (ix2 j k) = m ((c : Thread nD τ).loc main_arg1) (ix2 k j) := by
  rw [weights1]
  exact transpose_apply [1, 0] _ transposes_S64x128_S128x64_1_0 (ix2 j k) (ix2 k j) (fun b => match b with
    | ⟨0, _⟩ => rfl
    | ⟨1, _⟩ => rfl)

/-- Entry (0, k) of the bias row is b1[k]. -/
theorem bias1_apply (c : Dev nD) (k : Fin 64) :
    (V m c main_v1 : S1x64.Idx → EReal) (ix2 (0 : Fin 1) k) = m ((c : Thread nD τ).loc main_arg2) (ix1 k) := by
  rw [bias1]
  exact shapeCast_apply _ shapeCasts_S64_S1x64 (ix2 (0 : Fin 1) k) (ix1 k) (by
    rw [Shape.rowMajor_val_one, Shape.rowMajor_val_two]
    show k.val = 0 * 64 + k.val
    omega)

/-- Entry (k, 0) of the weight column is W2[0, k]. -/
theorem weights2_apply (c : Dev nD) (k : Fin 64) :
    (V m c main_v2 : S64x1.Idx → EReal) (ix2 k (0 : Fin 1)) = m ((c : Thread nD τ).loc main_arg3) (ix2 (0 : Fin 1) k) := by
  rw [weights2]
  exact shapeCast_apply _ shapeCasts_S1x64_S64x1 (ix2 k (0 : Fin 1)) (ix2 (0 : Fin 1) k) (by
    rw [Shape.rowMajor_val_two, Shape.rowMajor_val_two]
    show 0 * 64 + k.val = k.val * 1 + 0
    omega)

/-- The [1, 1] entry is b2[0]. -/
theorem bias2_apply (c : Dev nD) :
    (V m c main_v3 : S1x1.Idx → EReal) (ix2 (0 : Fin 1) (0 : Fin 1)) = m ((c : Thread nD τ).loc main_arg4) (ix1 (0 : Fin 1)) := by
  rw [bias2]
  exact shapeCast_apply _ shapeCasts_S1_S1x1 (ix2 (0 : Fin 1) (0 : Fin 1)) (ix1 (0 : Fin 1)) (by
    rw [Shape.rowMajor_val_one, Shape.rowMajor_val_two]
    show 0 = 0 * 1 + 0
    omega)

end Cert.MlpHead.Entry

end
-- ==== Proof.Packed.lean ====
/-
  The region's output array after the run is the packed scores. Grid point `t` holds the block of batch rows
  2048·t … 2048·t + 2047 (block `t` of the features along the batch; the four small operands are whole
  at every point) and writes rows 16·t … 16·t + 15 of the [128, 128] output. Position (p, q) of what it
  writes is the score of block row 128·p + q, that is of batch row 2048·t + 128·p + q = 128·(16·t + p) + q:
  the packed layout's entry at row 16·t + p, lane q. The eight row bands cover the 128 rows.
-/
import proofs.«120947_g8358006358319_cont_9to1c4b_776_4_alg».proof.Proof.Gen.KernelIdeal.Frame
import proofs.«120947_g8358006358319_cont_9to1c4b_776_4_alg».proof.Proof.Spec
import proofs.«120947_g8358006358319_cont_9to1c4b_776_4_alg».proof.Proof.BodySpec
import proofs.«120947_g8358006358319_cont_9to1c4b_776_4_alg».proof.Proof.EntryArrays
import Idealize.ShloMosaic.Lib.Pipeline.Value
import Idealize.ShloMosaic.Lib.ValueIdx

set_option maxRecDepth 16384

noncomputable section

open scoped BigOperators

namespace Cert.MlpHead.Packed

open Cert.KernelIdeal Cert.KernelIdeal.Gen Idealize.ShloMosaic Idealize.ShloMosaic.TcCoe Idealize.ShloMosaic.ValueIdx
open Idealize.SL.Sem Idealize.ShloMosaic.Pipeline

/-! ## One point's stored block, from blocks that restrict the arrays -/

/-- If the loaded blocks are band `b` of the features and the four small operands read through the host's
    re-layings, the stored block's position (p, q) is the packed scores' entry at row 16·b + p, lane q. -/
theorem stored_is_packed
    (acc : FVec Ideal S16384x128 .f32) (w1 : FVec Ideal S64x128 .f32) (b1 : FVec Ideal S64 .f32)
    (w2 : FVec Ideal S1x64 .f32) (b2 : FVec Ideal S1 .f32)
    (x0 : FVec Ideal S2048x128 .f32) (x1 : FVec Ideal S128x64 .f32) (x2 : FVec Ideal S1x64 .f32)
    (x3 : FVec Ideal S64x1 .f32) (x4 : FVec Ideal S1x1 .f32) (b : Nat)
    (h0 : ∀ (r : Fin 2048) (j : Fin 128) (R : Fin 16384), R.val = b * 2048 + r.val → x0 (ix2 r j) = acc (ix2 R j))
    (h1 : ∀ (j : Fin 128) (k : Fin 64), x1 (ix2 j k) = w1 (ix2 k j))
    (h2 : ∀ k : Fin 64, x2 (ix2 (0 : Fin 1) k) = b1 (ix1 k))
    (h3 : ∀ k : Fin 64, x3 (ix2 k (0 : Fin 1)) = w2 (ix2 (0 : Fin 1) k))
    (h4 : x4 (ix2 (0 : Fin 1) (0 : Fin 1)) = b2 (ix1 (0 : Fin 1)))
    (p : Fin 16) (q : Fin 128) (R : Fin 128) (hR : R.val = b * 16 + p.val) :
    k0_pay1 (F := Ideal) x0 x1 x2 x3 x4 (ix2 p q) = Cert.MlpHead.packed acc w1 b1 w2 b2 (ix2 R q) := by
  rw [Cert.MlpHead.Body.stored_apply]
  show _ = Cert.MlpHead.score acc w1 b1 w2 b2 (Cert.MlpHead.packedRow R q)
  unfold Cert.MlpHead.score Cert.MlpHead.hidden
  rw [h4]
  refine congrArg (· + _) (Finset.sum_congr rfl fun k _ => ?_)
  rw [h2 k, h3 k]
  refine congrArg (fun s => max (s + _) _ * _) (Finset.sum_congr rfl fun j _ => ?_)
  rw [h0 (Cert.MlpHead.Body.blockRow p q) j (Cert.MlpHead.packedRow R q) (by
      show R.val * 128 + q.val = b * 2048 + (p.val * 128 + q.val)
      omega), h1 j k]

/-! ## The printed index maps, decided once over the grid -/

/-- At every point: the features' block index along the batch is the output's row-band index, which is below 8;
    every other block index is zero. -/
theorem idx_facts : ∀ t : Fin cfg0.N,
    win0_0.index t (0 : Fin 2) = win0_5.index t (0 : Fin 2) ∧ win0_0.index t (1 : Fin 2) = 0
    ∧ win0_5.index t (0 : Fin 2) < 8 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every row band is some point's. -/
theorem band_onto : ∀ q : Fin 8, ∃ t : Fin cfg0.N, win0_5.index t (0 : Fin 2) = q.val :=
  (by decide +kernel : ∀ q : Fin 8, ∃ t : Fin grid0.N, win0_5.index t (0 : Fin 2) = q.val)

theorem zero_offsets : (![0, 0] : Fin 2 → Nat) = fun _ => 0 := funext fun a => by fin_cases a <;> rfl

variable (m : (ℓ : Loc nD τ sig) → Buf (Elt Ideal) ℓ)

/-- The packed scores of the five argument arrays as launched on core `c`. -/
def target (c : Dev nD) : S128x128.Idx → EReal :=
  Cert.MlpHead.packed (m ((c : Thread nD τ).loc main_arg0)) (m ((c : Thread nD τ).loc main_arg1))
    (m ((c : Thread nD τ).loc main_arg2)) (m ((c : Thread nD τ).loc main_arg3)) (m ((c : Thread nD τ).loc main_arg4))

/-! ## What a point writes back -/

/-- WHAT POINT `t` WRITES BACK is block `t` of the packed scores of the arguments. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero zero_offsets]
  simp only [View.ld_unit_zero (S := S2048x128) zero_offsets, View.ld_unit_zero (S := S128x64) zero_offsets,
    View.ld_unit_zero (S := S1x64) zero_offsets, View.ld_unit_zero (S := S64x1) zero_offsets,
    View.ld_unit_zero (S := S1x1) zero_offsets]
  obtain ⟨e00, e01, e5lt, e51, e10, e11, e20, e21, e30, e31, e40, e41⟩ := idx_facts t
  funext y
  obtain ⟨p, q, rfl⟩ : ∃ (p : Fin 16) (q : Fin 128), y = ix2 p q := ⟨y 0, y 1, eq_ix2 y⟩
  show k0_pay1 (F := Ideal) (iblk m c 0 t) (iblk m c 1 t) (iblk m c 2 t) (iblk m c 3 t) (iblk m c 4 t) (ix2 p q)
    = target m c (((cfg0.win 5).blk t).view.emb (ix2 p q))
  have hrow : win0_5.index t (0 : Fin 2) * 16 + p.val < 128 := by have := p.isLt; omega
  have e5 : ((cfg0.win 5).blk t).view.emb (ix2 p q)
      = ix2 (⟨win0_5.index t (0 : Fin 2) * 16 + p.val, hrow⟩ : Fin 128) q := by
    funext a; apply Fin.ext
    match a with
    | ⟨0, _⟩ => show win0_5.index t (0 : Fin 2) * 16 + 1 * p.val = win0_5.index t (0 : Fin 2) * 16 + p.val; omega
    | ⟨1, _⟩ => show win0_5.index t (1 : Fin 2) * 128 + 1 * q.val = q.val; omega
  rw [e5]
  exact stored_is_packed (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) (win0_5.index t (0 : Fin 2))
    (fun r j R hR => by
      show V m c main_arg0 (((cfg0.win 0).blk t).view.emb (ix2 r j)) = _
      rw [V_main_arg0]
      refine congrArg _ (funext fun a => Fin.ext ?_)
      match a with
      | ⟨0, _⟩ => show win0_0.index t (0 : Fin 2) * 2048 + 1 * r.val = R.val; omega
      | ⟨1, _⟩ => show win0_0.index t (1 : Fin 2) * 128 + 1 * j.val = j.val; omega)
    (fun j k => by
      show V m c main_v0 (((cfg0.win 1).blk t).view.emb (ix2 j k)) = _
      rw [← Cert.MlpHead.Entry.weights1_apply m c j k]
      refine congrArg _ (funext fun a => Fin.ext ?_)
      match a with
      | ⟨0, _⟩ => show win0_1.index t (0 : Fin 2) * 128 + 1 * j.val = j.val; omega
      | ⟨1, _⟩ => show win0_1.index t (1 : Fin 2) * 64 + 1 * k.val = k.val; omega)
    (fun k => by
      show V m c main_v1 (((cfg0.win 2).blk t).view.emb (ix2 (0 : Fin 1) k)) = _
      rw [← Cert.MlpHead.Entry.bias1_apply m c k]
      refine congrArg _ (funext fun a => Fin.ext ?_)
      match a with
      | ⟨0, _⟩ => show win0_2.index t (0 : Fin 2) * 1 + 1 * 0 = 0; omega
      | ⟨1, _⟩ => show win0_2.index t (1 : Fin 2) * 64 + 1 * k.val = k.val; omega)
    (fun k => by
      show V m c main_v2 (((cfg0.win 3).blk t).view.emb (ix2 k (0 : Fin 1))) = _
      rw [← Cert.MlpHead.Entry.weights2_apply m c k]
      refine congrArg _ (funext fun a => Fin.ext ?_)
      match a with
      | ⟨0, _⟩ => show win0_3.index t (0 : Fin 2) * 64 + 1 * k.val = k.val; omega
      | ⟨1, _⟩ => show win0_3.index t (1 : Fin 2) * 1 + 1 * 0 = 0; omega)
    (by
      show V m c main_v3 (((cfg0.win 4).blk t).view.emb (ix2 (0 : Fin 1) (0 : Fin 1))) = _
      rw [← Cert.MlpHead.Entry.bias2_apply m c]
      refine congrArg _ (funext fun a => Fin.ext ?_)
      match a with
      | ⟨0, _⟩ => show win0_4.index t (0 : Fin 2) * 1 + 1 * 0 = 0; omega
      | ⟨1, _⟩ => show win0_4.index t (1 : Fin 2) * 1 + 1 * 0 = 0; omega)
    p q ⟨win0_5.index t (0 : Fin 2) * 16 + p.val, hrow⟩ rfl

/-! ## The row bands cover the array -/

/-- An index of the output array is in point `t`'s block iff each coordinate is in the block's range on its axis. -/
theorem mem_blk (t : Fin cfg0.N) (i : S128x128.Idx) :
    i ∈ ((cfg0.win 5).blk t).view.set ↔ ∀ a : Fin 2, win0_5.index t a * S16x128.size a ≤ (i a).val ∧ (i a).val < win0_5.index t a * S16x128.size a + S16x128.size a := by
  show i ∈ ((View.whole main_v4).slice (win0_5.rect t)).set ↔ _
  rw [View.set_slice_whole, Rect.mem_set_unit]
  exact Iff.rfl

/-- Row `R` is in the band of the point whose band index is `R / 16`. -/
theorem cover (i : S128x128.Idx) :
    ∃ t : Fin cfg0.N, (cfg0.win 5).flush t = true ∧ i ∈ ((cfg0.win 5).blk t).view.set := by
  have hi0 : (i 0).val < 128 := (i 0).isLt
  have hi1 : (i 1).val < 128 := (i 1).isLt
  obtain ⟨t, ht⟩ := band_onto ⟨(i 0).val / 16, by omega⟩
  have ht' : win0_5.index t (0 : Fin 2) = (i 0).val / 16 := ht
  obtain ⟨e00, e01, e5lt, e51, -⟩ := idx_facts t
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 128 ≤ (i 1).val ∧ (i 1).val < win0_5.index t (1 : Fin 2) * 128 + 128; omega

/-- THE OUTPUT ARRAY after the run: the packed scores of the arguments. -/
theorem final (c : Dev nD) : (dats m 0 c).arrAt 5 cfg0.N = target m c :=
  (dats m 0 c).arrAt_eq_of_cover 5 (target m c) (fun t _ => flushed_eq m c t) cover

end Cert.MlpHead.Packed

end
-- ==== Proof.KernelRun.lean ====
/-
  The kernel program's run, with its result named. After the region the host flattens the [128, 128] output
  row-major to the [16384] result. The region's array ends as the packed scores, row R and lane C holding the
  score of batch row 128·R + C, and the flat position of (R, C) is 128·R + C: so the result at `r` is the
  packed array at (r / 128, r % 128), the score of batch row `r`. The five arguments end as launched.
-/
import proofs.«120947_g8358006358319_cont_9to1c4b_776_4_alg».proof.Proof.Packed
import Idealize.ShloMosaic.Lib.StableHlo.Run

set_option maxRecDepth 16384

noncomputable section

namespace Cert.MlpHead.KernelRun

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ) (ρ : Dev nD → PrngReg)

/-- The scores of the five argument arrays as launched on core `c`. -/
abbrev scoresOf (c : Dev nD) : S16384.Idx → EReal :=
  Cert.MlpHead.scores (m ((c : Thread nD τ).loc main_arg0)) (m ((c : Thread nD τ).loc main_arg1))
    (m ((c : Thread nD τ).loc main_arg2)) (m ((c : Thread nD τ).loc main_arg3)) (m ((c : Thread nD τ).loc main_arg4))

/-- The result buffer after the host's last line: the region's output array, flattened. -/
theorem result_eq (c : Dev nD) :
    Pipeline.afterTail₀ cfgs (dats m) 0 (V0 m) [hostOps1] c main_v5
      = shapeCast S16384 (Cert.MlpHead.Packed.target m c) shapeCasts_S128x128_S16384 := by
  unfold Pipeline.afterTail₀
  show StableHlo.after hostOps1 _ (Proc.devRef .tc main_v5) = _
  after_results
  exact congrArg (fun x => shapeCast S16384 x shapeCasts_S128x128_S16384)
    ((Pipeline.withArrays_arr spec0 launch0.win.arr_inj c _ _ 5).trans (Cert.MlpHead.Packed.final m c))

/-- Flattening the packed scores gives the scores. -/
theorem flattened_eq_scores (c : Dev nD) :
    shapeCast S16384 (Cert.MlpHead.Packed.target m c) shapeCasts_S128x128_S16384 = scoresOf m c := by
  funext i
  obtain ⟨r, rfl⟩ : ∃ r : Fin 16384, i = ix1 r := ⟨i 0, eq_ix1 i⟩
  have hR : r.val / 128 < 128 := by have := r.isLt; omega
  have hC : r.val % 128 < 128 := Nat.mod_lt _ (by decide)
  rw [shapeCast_apply _ shapeCasts_S128x128_S16384 (ix1 r) (ix2 (⟨r.val / 128, hR⟩ : Fin 128) (⟨r.val % 128, hC⟩ : Fin 128)) (by
    rw [Shape.rowMajor_val_two, Shape.rowMajor_val_one]
    show r.val / 128 * 128 + r.val % 128 = r.val
    omega)]
  exact Cert.MlpHead.packed_at_row _ _ _ _ _ _ _ r (by show r.val = r.val / 128 * 128 + r.val % 128; omega)

/-- THE KERNEL PROGRAM'S RUN: every weakly fair execution terminates, the result holding the scores of the
    arguments and the arguments unchanged. -/
theorem run : θ_run defs (onTc (τ := τ) (main (F := Ideal))) ⟨m, fun _ => 0, ρ⟩ (fun r => ∀ c : Dev nD,
      r.2.mem ((c.tc : Thread nD τ).loc main_v5) = scoresOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans
        ((result_eq m c).trans (flattened_eq_scores m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.MlpHead.KernelRun

end
-- ==== Proof.lean ====
/-
  The kernel and its reference compute one function. Both are a two-layer head,

      score r = Σ_k max (Σ_j acc[r, j] · W1[k, j] + b1[k]) 0 · W2[0, k] + b2[0],

  over a batch of 16384 rows. The reference is two whole matrix products on the host. The kernel walks the batch
  in eight blocks of 2048 rows, forms each block's hidden units and scores with two matrix products into zero
  accumulators, and writes them 128 to a row; the host flattens the rows back to the batch. At the ideal
  instance a matrix product into zero is the plain sum over the contracted axis, so the two sides are the same
  sums of the same products in the same grouping: no law beyond reading each side at an index is needed, and the
  inputs' finiteness is not used. The idealized kernel is the kernel's own text read over the extended reals, with
  no operation replaced, so nothing is owed for its idealization.

  Spec: the scores, as a vector and in the packed layout. RefSpec: the reference is the scores. BodySpec: the
  stored block at a position. EntryArrays: the operands the host prepares. Packed: the region's array after
  the run. KernelRun: the flattened result and the kernel program's run.
-/
import proofs.«120947_g8358006358319_cont_9to1c4b_776_4_alg».proof.Defs
import proofs.«120947_g8358006358319_cont_9to1c4b_776_4_alg».proof.Proof.Gen.Kernel
import proofs.«120947_g8358006358319_cont_9to1c4b_776_4_alg».proof.Proof.Gen.Kernel.Skeleton
import proofs.«120947_g8358006358319_cont_9to1c4b_776_4_alg».proof.Proof.Gen.Kernel.Launch
import proofs.«120947_g8358006358319_cont_9to1c4b_776_4_alg».proof.Proof.Gen.Kernel.Points
import proofs.«120947_g8358006358319_cont_9to1c4b_776_4_alg».proof.Proof.Gen.Kernel.Frame
import proofs.«120947_g8358006358319_cont_9to1c4b_776_4_alg».proof.Proof.Gen.KernelIdeal
import proofs.«120947_g8358006358319_cont_9to1c4b_776_4_alg».proof.Proof.Gen.KernelIdeal.Skeleton
import proofs.«120947_g8358006358319_cont_9to1c4b_776_4_alg».proof.Proof.Gen.KernelIdeal.Launch
import proofs.«120947_g8358006358319_cont_9to1c4b_776_4_alg».proof.Proof.Gen.KernelIdeal.Points
import proofs.«120947_g8358006358319_cont_9to1c4b_776_4_alg».proof.Proof.Gen.KernelIdeal.Frame
import proofs.«120947_g8358006358319_cont_9to1c4b_776_4_alg».proof.Proof.Gen.ReferenceIdeal
import proofs.«120947_g8358006358319_cont_9to1c4b_776_4_alg».proof.Proof.Gen.ReferenceIdeal.Run
import proofs.«120947_g8358006358319_cont_9to1c4b_776_4_alg».proof.Proof.Gen.ReferenceIdeal.Read
import proofs.«120947_g8358006358319_cont_9to1c4b_776_4_alg».proof.Proof.Gen.Pre_finite_inputs
import proofs.«120947_g8358006358319_cont_9to1c4b_776_4_alg».proof.Proof.RefSpec
import proofs.«120947_g8358006358319_cont_9to1c4b_776_4_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization replaced no operation: there is nothing to state. -/
theorem preserves : Cert.preserves_Kernel_KernelIdeal := trivial

/-- From memories agreeing on the five arguments, the idealized kernel and the idealized reference both end with the
    scores of those arguments as their result. -/
theorem algebraic : Cert.algebraic_KernelIdeal_ReferenceIdeal := by
  intro m ρ m' ρ' _ hagree
  refine ⟨fun c => Cert.MlpHead.KernelRun.scoresOf m c, Cert.MlpHead.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.MlpHead.Reference.reference_eq_scores,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
